-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S16384x4096 : Shape := ⟨2, ![16384, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S2x4096x4096 .f32) (main_arg1 : FVec F S16384x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S2x4096x4096 : Shape := ⟨3, ![2, 4096, 4096]⟩
abbrev S16384x4096 : Shape := ⟨2, ![16384, 4096]⟩
abbrev S8192x4096 : Shape := ⟨2, ![8192, 4096]⟩
abbrev S4096x16384 : Shape := ⟨2, ![4096, 16384]⟩
abbrev S8192x16384 : Shape := ⟨2, ![8192, 16384]⟩
abbrev S2048x1024 : Shape := ⟨2, ![2048, 1024]⟩
abbrev S1024x2048 : Shape := ⟨2, ![1024, 2048]⟩
abbrev S2048x2048 : Shape := ⟨2, ![2048, 2048]⟩
abbrev S2x4096x16384 : Shape := ⟨3, ![2, 4096, 16384]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S16384x4096, .f32⟩
  | .hbm, ⟨2, _⟩ => ⟨S8192x4096, .f32⟩
  | .hbm, ⟨3, _⟩ => ⟨S8192x4096, .bf16⟩
  | .hbm, ⟨4, _⟩ => ⟨S16384x4096, .f32⟩
  | .hbm, ⟨5, _⟩ => ⟨S16384x4096, .bf16⟩
  | .hbm, ⟨6, _⟩ => ⟨S4096x16384, .bf16⟩
  | .hbm, ⟨7, _⟩ => ⟨S8192x16384, .f32⟩
  | .hbm, ⟨8, _⟩ => ⟨S2x4096x16384, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .f32⟩
  | .local _ .vmem, ⟨5, _⟩ => ⟨S2048x2048, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S2x4096x4096_S8192x4096 : S2x4096x4096.ShapeCasts S8192x4096
  bitsLt_bf16_f32 : FTy.bits .bf16 < FTy.bits .f32
  transposes_S16384x4096_S4096x16384_1_0 : S16384x4096.Transposes [1, 0] S4096x16384
  inb_S2048x2048_S2048x2048_0_0 : ∀ a, (![0, 0] : Fin 2 → Nat) a + S2048x2048.size a ≤ S2048x2048.size a
  h_S2048x2048 : 0 < S2048x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S2048x2048_S2048x2048 : S2048x2048.ShapeCasts S2048x2048
  shapeCasts_S8192x16384_S2x4096x16384 : S8192x16384.ShapeCasts S2x4096x16384
  dot_S2048x1024_S1024x2048_S2048x2048_1_0_0_1_n_n_wf : DotDims.WF S2048x1024 S1024x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x16384.size a
  hwx0_1 : ∀ i : grid0.Coords, EltTy.bits .bf16 = 32 ∨ (Rect.block (s := S4096x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x16384.size a
  hwx0_2 : ∀ i : grid0.Coords, EltTy.bits .f32 = 32 ∨ (Rect.block (s := S8192x16384) S2048x2048.size (cc0_transform_2 i) (hinb0_2 i)).WholeWords (EltTy.packing .f32)

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S16384x4096 : Shape := ⟨2, ![16384, 4096]⟩
abbrev S2x4096x16384 : Shape := ⟨3, ![2, 4096, 16384]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S16384x4096, .f32⟩
  | .hbm, ⟨2, _⟩ => ⟨S16384x4096, .f32⟩
  | .hbm, ⟨3, _⟩ => ⟨S2x4096x16384, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S2x4096x4096_S16384x4096_S2x4096x16384_2_1_01_0_n_n_wf : DotDims.WF S2x4096x4096 S16384x4096 S2x4096x16384 [2] [1] [0, 1] [0] [] []

variable [Facts₀]

def dot_S2x4096x4096_S16384x4096_S2x4096x16384_2_1_01_0_n_n : DotDims S2x4096x4096 S16384x4096 S2x4096x16384 where
  lhsContracting := [2]
  rhsContracting := [1]
  lhsNonContracting := [0, 1]
  rhsNonContracting := [0]
  lhsBatch := []
  rhsBatch := []
  wf := dot_S2x4096x4096_S16384x4096_S2x4096x16384_2_1_01_0_n_n_wf

class Facts : Prop extends Facts₀ where

variable [Facts]
-- ==== Proof.Pieces.lean ====
/-
  What the kernel body leaves in the output block's staging buffer, in each of its two control cases, as ONE pure
  term of what the buffers held when the body started.

  The body runs once per grid point `(i, j, k)`: `k` walks the four 1024-wide blocks of the contraction axis. It first
  zeroes the [2048, 2048] output block when `k = 0`, then loads the [2048, 1024] block `a` of the left operand, the
  [1024, 2048] block `b` of the right operand and the output block `acc` as it now stands, and stores
  `acc + a · b` over the whole output block. So

    * at a point with `k = 0` the block ends at `accumulate a b zero` — the read-back of the output block sees the
      zeros just stored, whatever the buffer held before (`left_at_first`);
    * at every other point it ends at `accumulate a b acc`, `acc` what the point before left (`left_at_later`),

  where `accumulate` is the body's arithmetic (`k0_pay2`) and `zero` the splat it stores first (`k0_pay1`). Both
  hold at any float instance: they only say which loads read which stores, each load and store covering its whole
  buffer (rectangle at offset (0, 0) of the buffer's own extents).
-/
import proofs.«178053_j31825707663462_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]

/-- Every load and store of the body is at offset (0, 0). -/
theorem offset_zero : (![0, 0] : Fin 2 → Nat) = fun _ => 0 := funext fun a => by fin_cases a <;> rfl

/-- At a point that is not the first of its run of four, the body leaves `acc + a · b` of the two operand blocks and
    of what the output block held: its one store covers the block, and its three loads read the three buffers whole. -/
theorem left_at_later (c : Dev nD) (i : grid0.Coords) (a3 : Memref sig .tc .vmem S2048x1024 .bf16) (h3 : a3.IsWhole)
    (a4 : Memref sig .tc .vmem S1024x2048 .bf16) (h4 : a4.IsWhole) (a5 : Memref sig .tc .vmem S2048x2048 .f32) (h5 : a5.IsWhole)
    (hc : ¬cond0_0 i) (a : Vec F S2048x1024 .bf16) (b : Vec F S1024x2048 .bf16) (acc : Vec F S2048x2048 .f32) :
    out0_B_2 c i a3 h3 a4 h4 a5 h5 hc a b acc = k0_pay2 a b acc := by
  unfold out0_B_2
  rw [View.read_writes_eq_canon _ _ _ (cover0_B_2 c i a3 h3 a4 h4 a5 h5 hc a b acc)]
  unfold kernelRun0_B
  dsimp only
  rw [View.canon_unit_zero offset_zero]
  simp only [View.readAt_eq_ld, h3.read_unread, h4.read_unread, h5.read_unread,
    View.ld_unit_zero (S := S2048x1024) offset_zero, View.ld_unit_zero (S := S1024x2048) offset_zero,
    View.ld_unit_zero (S := S2048x2048) offset_zero]

/-- At the first point of a run of four the body stores the zero splat over the block, reads it back, and leaves
    `zero + a · b`: the later store covers the block, and the read-back of the output buffer is covered by the first
    store, so what the buffer held before does not appear. -/
theorem left_at_first (c : Dev nD) (i : grid0.Coords) (a3 : Memref sig .tc .vmem S2048x1024 .bf16) (h3 : a3.IsWhole)
    (a4 : Memref sig .tc .vmem S1024x2048 .bf16) (h4 : a4.IsWhole) (a5 : Memref sig .tc .vmem S2048x2048 .f32) (h5 : a5.IsWhole)
    (hc : cond0_0 i) (a : Vec F S2048x1024 .bf16) (b : Vec F S1024x2048 .bf16) :
    out0_A_2 c i a3 h3 a4 h4 a5 h5 hc a b = k0_pay2 a b (k0_pay1 (F := F)) := by
  unfold out0_A_2
  rw [View.read_writes_eq_canon _ _ _ (cover0_A_2 c i a3 h3 a4 h4 a5 h5 hc a b)]
  unfold kernelRun0_A
  dsimp only
  sl_unfold_words
  rw [View.canon_cons_unit_zero (S := S2048x2048) offset_zero, View.readCov_unit_zero (S := S2048x2048) _ offset_zero]
  simp only [View.readAt_eq_ld, h3.read_unread, h4.read_unread,
    View.ld_unit_zero (S := S2048x1024) offset_zero, View.ld_unit_zero (S := S1024x2048) offset_zero]

end Cert.KernelIdeal.Accum

end
-- ==== Proof.Payload.lean ====
/-
  The body's arithmetic read at one entry of the output block, over the extended reals.

  The body computes `acc + a · b`: `a` a [2048, 1024] block, `b` a [1024, 2048] block, the product a matrix product
  contracting `a`'s columns with `b`'s rows into a zero accumulator, `acc` the [2048, 2048] block so far. At
  the ideal instance the matrix product at entry `(p, q)` is the plain sum `∑ l, a[p, l] · b[l, q]` over the 1024
  contracted coordinates — no rounding, no order — and the zero accumulator adds nothing, so

      accumulate a b acc (p, q) = acc (p, q) + ∑ l, a[p, l] · b[l, q]          (`accumulate_apply`)

  and the splat the body stores first is `0` at every entry (`zero_apply`). The contraction's index set has ONE axis,
  of extent 1024; the sum over it is re-indexed through that one coordinate.
-/
import proofs.«178053_j31825707663462_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Accum

open Cert.KernelIdeal Cert.KernelIdeal.Gen Idealize.ShloMosaic Idealize.ShloMosaic.ValueIdx

/-- The left operand is read at the output entry's row … -/
theorem lhs_row (j : S2048x2048.Idx) (k : dot_S2048x1024_S1024x2048_S2048x2048_1_0_0_1_n_n.contr.Idx) :
    (dot_S2048x1024_S1024x2048_S2048x2048_1_0_0_1_n_n.lhsIdx j k 0).val = (j 0).val := by
  unfold DotDims.lhsIdx
  rw [dif_neg (show ¬(0 : Fin S2048x1024.rank) ∈ dot_S2048x1024_S1024x2048_S2048x2048_1_0_0_1_n_n.lhsBatch by decide),
    dif_pos (show (0 : Fin S2048x1024.rank) ∈ dot_S2048x1024_S1024x2048_S2048x2048_1_0_0_1_n_n.lhsNonContracting by decide)]
  rfl
/-- … and the contracted coordinate; -/
theorem lhs_col (j : S2048x2048.Idx) (k : dot_S2048x1024_S1024x2048_S2048x2048_1_0_0_1_n_n.contr.Idx) :
    (dot_S2048x1024_S1024x2048_S2048x2048_1_0_0_1_n_n.lhsIdx j k 1).val = (k ⟨0, by decide⟩).val :=
  dot_S2048x1024_S1024x2048_S2048x2048_1_0_0_1_n_n.lhsIdx_val_of_single rfl j k
/-- the right operand at the contracted coordinate … -/
theorem rhs_row (j : S2048x2048.Idx) (k : dot_S2048x1024_S1024x2048_S2048x2048_1_0_0_1_n_n.contr.Idx) :
    (dot_S2048x1024_S1024x2048_S2048x2048_1_0_0_1_n_n.rhsIdx j k 0).val = (k ⟨0, by decide⟩).val :=
  dot_S2048x1024_S1024x2048_S2048x2048_1_0_0_1_n_n.rhsIdx_val_of_single rfl j k
/-- … and the output entry's column. -/
theorem rhs_col (j : S2048x2048.Idx) (k : dot_S2048x1024_S1024x2048_S2048x2048_1_0_0_1_n_n.contr.Idx) :
    (dot_S2048x1024_S1024x2048_S2048x2048_1_0_0_1_n_n.rhsIdx j k 1).val = (j 1).val := by
  unfold DotDims.rhsIdx
  rw [dif_neg (show ¬(1 : Fin S1024x2048.rank) ∈ dot_S2048x1024_S1024x2048_S2048x2048_1_0_0_1_n_n.rhsBatch by decide),
    dif_pos (show (1 : Fin S1024x2048.rank) ∈ dot_S2048x1024_S1024x2048_S2048x2048_1_0_0_1_n_n.rhsNonContracting by decide)]
  rfl

/-- The block product into a zero accumulator, at entry `(p, q)`: `∑ l, a[p, l] · b[l, q]` over the 1024 contracted
    coordinates. -/
theorem block_product_apply (a : FVec Ideal S2048x1024 .bf16) (b : FVec Ideal S1024x2048 .bf16) (p q : Fin 2048) :
    matmul dot_S2048x1024_S1024x2048_S2048x2048_1_0_0_1_n_n none a b (constant (F := Ideal) S2048x2048 .f32 0x00000000#32) (ix2 p q)
      = ∑ l : Fin 1024, a (ix2 p l) * b (ix2 l q) := by
  simp only [matmul]
  rw [Ideal.matmul_constant_zero_apply, ← Equiv.sum_comp (contrEquiv1 dot_S2048x1024_S1024x2048_S2048x2048_1_0_0_1_n_n 1024 rfl rfl).symm]
  refine Finset.sum_congr rfl fun l _ => ?_
  have hk := contrEquiv1_symm_val dot_S2048x1024_S1024x2048_S2048x2048_1_0_0_1_n_n 1024 rfl rfl l
  have el : dot_S2048x1024_S1024x2048_S2048x2048_1_0_0_1_n_n.lhsIdx (ix2 p q) ((contrEquiv1 dot_S2048x1024_S1024x2048_S2048x2048_1_0_0_1_n_n 1024 rfl rfl).symm l) = ix2 p l := funext fun d => Fin.ext (by
    match d with
    | ⟨0, _⟩ => exact lhs_row _ _
    | ⟨1, _⟩ => exact (lhs_col _ _).trans hk)
  have er : dot_S2048x1024_S1024x2048_S2048x2048_1_0_0_1_n_n.rhsIdx (ix2 p q) ((contrEquiv1 dot_S2048x1024_S1024x2048_S2048x2048_1_0_0_1_n_n 1024 rfl rfl).symm l) = ix2 l q := funext fun d => Fin.ext (by
    match d with
    | ⟨0, _⟩ => exact (rhs_row _ _).trans hk
    | ⟨1, _⟩ => exact rhs_col _ _)
  rw [el, er]

/-- THE BODY'S ARITHMETIC at entry `(p, q)`: what the block held there plus the inner product of `a`'s row `p` with
    `b`'s column `q`. -/
theorem accumulate_apply (a : Vec Ideal S2048x1024 .bf16) (b : Vec Ideal S1024x2048 .bf16) (acc : Vec Ideal S2048x2048 .f32)
    (p q : Fin 2048) :
    k0_pay2 (F := Ideal) a b acc (ix2 p q) = acc (ix2 p q) + ∑ l : Fin 1024, a (ix2 p l) * b (ix2 l q) := by
  unfold k0_pay2
  simp only [shapeCast_self]
  exact congrArg (acc (ix2 p q) + ·) (block_product_apply a b p q)

/-- The splat the body stores first is `0` at every entry. -/
theorem zero_apply (y : S2048x2048.Idx) : k0_pay1 (F := Ideal) y = 0 := by
  unfold k0_pay1
  exact Ideal.ofBits_zero_f32

end Cert.KernelIdeal.Accum

end
-- ==== Proof.Spec.lean ====
/-
  The function both programs compute, stated once over the argument arrays, and the one law that joins the two
  ways of summing it.

  The arguments are the activations `x` of shape [2, 4096, 4096] (batch, position, input feature) and the weights `w`
  of shape [16384, 4096] (output feature, input feature). For a batch `b`, a position `s` and an output feature `o`
  the result entry is the inner product, over the 4096 input features `i`, of `x[b, s, i]` with the SIGN of `w[o, i]`:

      result x w (b, s, o) = ∑ i, x[b, s, i] · sign (w[o, i]).

  One program takes this sum in one contraction over all 4096 features; the other cuts the feature axis into four
  consecutive blocks of 1024, sums each block, and adds the four block sums one after the other onto a zero. Over the
  extended reals addition is commutative and associative (no entry need be finite for that), so the sum over
  `range (B · n)` is the sum over the `n` blocks of the sums over `range B` (`sum_blocks`): that is the whole of the
  algebra. Nothing here distributes a product over a sum or cancels anything, so no finiteness is used.

  To keep the index arithmetic in the natural numbers, the arrays are also read at natural-number coordinates
  (`xAt`, `wAt`: the entry inside the array, `0` outside; the value outside is never used) and one summand is named
  (`term`).
-/
import Idealize.ShloMosaic.PureOps.Ideal
import Idealize.ShloMosaic.Lib.ValueIdx

noncomputable section

open scoped BigOperators

namespace Cert.SignLinear

open Idealize.ShloMosaic Idealize.ShloMosaic.ValueIdx

/-- The activations' shape: batch 2, 4096 positions, 4096 input features. -/
abbrev SX : Shape := ⟨3, ![2, 4096, 4096]⟩
/-- The weights' shape: 16384 output features, 4096 input features. -/
abbrev SW : Shape := ⟨2, ![16384, 4096]⟩
/-- The result's shape: batch 2, 4096 positions, 16384 output features. -/
abbrev SY : Shape := ⟨3, ![2, 4096, 16384]⟩

/-- THE RESULT: entry `(b, s, o)` is `∑ i, x[b, s, i] · sign (w[o, i])` over the 4096 input features. -/
def result (x : SX.Idx → EReal) (w : SW.Idx → EReal) : SY.Idx → EReal :=
  fun j => ∑ i : Fin 4096, x (ix3 (j 0) (j 1) i) * Ideal.sign (w (ix2 (j 2) i))

/-- The activations at natural-number coordinates: the entry inside the array, `0` outside. -/
def xAt (x : SX.Idx → EReal) (b s i : ℕ) : EReal :=
  if h : b < 2 ∧ s < 4096 ∧ i < 4096 then x (ix3 ⟨b, h.1⟩ ⟨s, h.2.1⟩ ⟨i, h.2.2⟩) else 0

/-- The weights at natural-number coordinates: the entry inside the array, `0` outside. -/
def wAt (w : SW.Idx → EReal) (o i : ℕ) : EReal :=
  if h : o < 16384 ∧ i < 4096 then w (ix2 ⟨o, h.1⟩ ⟨i, h.2⟩) else 0

/-- Inside the array `xAt` is the entry. -/
theorem xAt_of_lt (x : SX.Idx → EReal) {b s i : ℕ} (hb : b < 2) (hs : s < 4096) (hi : i < 4096) :
    xAt x b s i = x (ix3 ⟨b, hb⟩ ⟨s, hs⟩ ⟨i, hi⟩) := dif_pos ⟨hb, hs, hi⟩

/-- Inside the array `wAt` is the entry. -/
theorem wAt_of_lt (w : SW.Idx → EReal) {o i : ℕ} (ho : o < 16384) (hi : i < 4096) :
    wAt w o i = w (ix2 ⟨o, ho⟩ ⟨i, hi⟩) := dif_pos ⟨ho, hi⟩

/-- One summand of the inner product: `x[b, s, i] · sign (w[o, i])` at natural-number coordinates. -/
def term (x : SX.Idx → EReal) (w : SW.Idx → EReal) (b s o i : ℕ) : EReal :=
  xAt x b s i * Ideal.sign (wAt w o i)

/-- The result entry as the sum of its summands at natural-number coordinates. -/
theorem result_eq_sum_term (x : SX.Idx → EReal) (w : SW.Idx → EReal) (j : SY.Idx) :
    result x w j = ∑ i : Fin 4096, term x w (j 0).val (j 1).val (j 2).val i.val := by
  unfold result term
  refine Finset.sum_congr rfl fun i _ => ?_
  rw [xAt_of_lt x (j 0).isLt (j 1).isLt i.isLt, wAt_of_lt w (j 2).isLt i.isLt]
  rfl

/-- THE LAW. A sum over `range (B · n)` is the sum, over the `n` consecutive blocks of length `B`, of the block sums:
    in a commutative monoid, by induction on the number of blocks (the last block is split off the range). -/
theorem sum_blocks {M : Type*} [AddCommMonoid M] (f : ℕ → M) (B : ℕ) :
    ∀ n : ℕ, ∑ s ∈ Finset.range n, ∑ l ∈ Finset.range B, f (B * s + l) = ∑ k ∈ Finset.range (B * n), f k
  | 0 => by simp
  | n + 1 => by rw [Finset.sum_range_succ, sum_blocks f B n, Nat.mul_succ, Finset.sum_range_add]

/-- The law at this kernel's extents, with the inner sums and the whole sum indexed by `Fin`: four blocks of 1024
    make the 4096 input features. -/
theorem sum_four_blocks {M : Type*} [AddCommMonoid M] (f : ℕ → M) :
    ∑ s ∈ Finset.range 4, ∑ l : Fin 1024, f (1024 * s + l.val) = ∑ k : Fin 4096, f k.val := by
  rw [Fin.sum_univ_eq_sum_range f 4096, ← sum_blocks f 1024 4]
  refine Finset.sum_congr rfl fun s _ => ?_
  exact Fin.sum_univ_eq_sum_range (fun l => f (1024 * s + l)) 1024

end Cert.SignLinear

end
-- ==== Proof.Operands.lean ====
/-
  The two operands the kernel's region finds, and their blocks at a grid point, read at one entry from the argument
  arrays, over the extended reals.

  Before the region the program prepares its operands from the arguments `x` [2, 4096, 4096] and `w` [16384, 4096]:

    * the LEFT operand is `x` with its batch and position axes merged into one row axis of 8192 (row `r` is batch
      `r / 4096`, position `r % 4096`), then narrowed to a 16-bit format — the identity on the extended reals:
          left[r, i] = x[r / 4096, r % 4096, i]                                                  (`left_apply`)
    * the RIGHT operand is the sign of `w`, narrowed likewise, then transposed to [4096, 16384]:
          right[i, o] = sign (w[o, i])                                                            (`right_apply`).

  The 128 grid points are numbered row-major over the grid (4, 8, 4): point `t` is `(t / 32, (t / 4) % 8, t % 4)` =
  (row tile, column tile, contraction block). At point `t` the left window's block is rows
  `2048 · (t / 32) + p`, columns `1024 · (t % 4) + l` of the left operand, and the right window's block rows
  `1024 · (t % 4) + l`, columns `2048 · ((t / 4) % 8) + q` of the right operand (`left_block_apply`,
  `right_block_apply`): a block's coordinate in its array is block index × block extent + coordinate in the block,
  and the block indices are the decided facts `index_left`, `index_right`.
-/
import proofs.«178053_j31825707663462_2_alg».proof.Proof.Gen.KernelIdeal.Frame
import proofs.«178053_j31825707663462_2_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Idealize.ShloMosaic.StableHlo Cert.SignLinear

variable (m : (ℓ : Loc nD τ sig) → Buf (Elt Ideal) ℓ)

/-- The left operand as the region finds it: `x` reshaped to [8192, 4096] and narrowed. -/
theorem left_eq (c : Dev nD) :
    V m c main_v1
      = (truncf (F := Ideal) .bf16 (shapeCast S8192x4096 (m ((c : Thread nD τ).loc main_arg0)) shapeCasts_S2x4096x4096_S8192x4096)
          bitsLt_bf16_f32 : FVec Ideal S8192x4096 .bf16) := by
  show StableHlo.after hostOps0 (fun b => m (c, b)) (Proc.devRef .tc main_v1) = _
  after_results
  rfl

/-- The right operand as the region finds it: the sign of `w`, narrowed, transposed to [4096, 16384]. -/
theorem right_eq (c : Dev nD) :
    V m c main_v4
      = (transpose S4096x16384 [1, 0] (truncf (F := Ideal) .bf16 (Host.sign (F := Ideal) (m ((c : Thread nD τ).loc main_arg1))) bitsLt_bf16_f32)
          transposes_S16384x4096_S4096x16384_1_0 : FVec Ideal S4096x16384 .bf16) := by
  show StableHlo.after hostOps0 (fun b => m (c, b)) (Proc.devRef .tc main_v4) = _
  after_results

/-- The left operand at row `r`, column `i`: `x` at batch `r / 4096`, position `r % 4096`, feature `i` — the reshape
    keeps the row-major position, `(b · 4096 + s) · 4096 + i = r · 4096 + i`. -/
theorem left_apply (c : Dev nD) (r : Fin 8192) (i : Fin 4096) :
    (V m c main_v1 : S8192x4096.Idx → EReal) (ix2 r i)
      = xAt (m ((c : Thread nD τ).loc main_arg0)) (r.val / 4096) (r.val % 4096) i.val := by
  have hr := r.isLt
  have hb : r.val / 4096 < 2 := by omega
  have hs : r.val % 4096 < 4096 := by omega
  rw [left_eq, xAt_of_lt _ hb hs i.isLt]
  show shapeCast S8192x4096 (m ((c : Thread nD τ).loc main_arg0)) shapeCasts_S2x4096x4096_S8192x4096 (ix2 r i) = _
  refine shapeCast_apply _ _ _ _ ?_
  show ((⟨3, ![2, 4096, 4096]⟩ : Shape).rowMajor (ix3 ⟨r.val / 4096, hb⟩ ⟨r.val % 4096, hs⟩ i)).val
    = ((⟨2, ![8192, 4096]⟩ : Shape).rowMajor (ix2 r i)).val
  rw [Shape.rowMajor_val_three, Shape.rowMajor_val_two]
  show (r.val / 4096 * 4096 + r.val % 4096) * 4096 + i.val = r.val * 4096 + i.val
  omega

/-- The right operand at row `i`, column `o`: the sign of `w` at output feature `o`, input feature `i`. -/
theorem right_apply (c : Dev nD) (i : Fin 4096) (o : Fin 16384) :
    (V m c main_v4 : S4096x16384.Idx → EReal) (ix2 i o)
      = Ideal.sign (wAt (m ((c : Thread nD τ).loc main_arg1)) o.val i.val) := by
  rw [right_eq, wAt_of_lt _ o.isLt i.isLt]
  refine (transpose_apply _ _ _ (ix2 i o) (ix2 o i) fun b => ?_).trans ?_
  · match b with
    | ⟨0, _⟩ => rfl
    | ⟨1, _⟩ => rfl
  · rfl

/-- Where the windows' blocks sit at point `t`: the left window at (row tile, contraction block), -/
theorem index_left : ∀ t : Fin cfg0.N, win0_0.index t 0 = t.val / 32 ∧ win0_0.index t 1 = t.val % 4 :=
  (by decide +kernel : ∀ t : Fin grid0.N, win0_0.index t 0 = t.val / 32 ∧ win0_0.index t 1 = t.val % 4)
/-- the right window at (contraction block, column tile). -/
theorem index_right : ∀ t : Fin cfg0.N, win0_1.index t 0 = t.val % 4 ∧ win0_1.index t 1 = t.val / 4 % 8 :=
  (by decide +kernel : ∀ t : Fin grid0.N, win0_1.index t 0 = t.val % 4 ∧ win0_1.index t 1 = t.val / 4 % 8)

/-- The left block at point `t`, entry `(p, l)`. -/
theorem left_block_apply (c : Dev nD) (t : Fin cfg0.N) (p : Fin 2048) (l : Fin 1024) :
    (iblk m c 0 t : Vec Ideal S2048x1024 .bf16) (ix2 p l)
      = xAt (m ((c : Thread nD τ).loc main_arg0)) ((2048 * (t.val / 32) + p.val) / 4096) ((2048 * (t.val / 32) + p.val) % 4096)
          (1024 * (t.val % 4) + l.val) := by
  have hi := index_left t
  have hp := p.isLt
  have hl := l.isLt
  have ht : t.val < 128 := lt_of_lt_of_eq t.isLt N_0
  have hr : 2048 * (t.val / 32) + p.val < 8192 := by omega
  have hk : 1024 * (t.val % 4) + l.val < 4096 := by omega
  refine Eq.trans ?_ (left_apply m c ⟨_, hr⟩ ⟨_, hk⟩)
  unfold iblk
  rw [View.read_apply]
  show (V m c main_v1 : S8192x4096.Idx → EReal) _ = (V m c main_v1 : S8192x4096.Idx → EReal) _
  congr 1
  funext a
  apply Fin.ext
  match a with
  | ⟨0, _⟩ => show win0_0.index t 0 * 2048 + 1 * p.val = 2048 * (t.val / 32) + p.val; rw [hi.1]; omega
  | ⟨1, _⟩ => show win0_0.index t 1 * 1024 + 1 * l.val = 1024 * (t.val % 4) + l.val; rw [hi.2]; omega

/-- The right block at point `t`, entry `(l, q)`. -/
theorem right_block_apply (c : Dev nD) (t : Fin cfg0.N) (l : Fin 1024) (q : Fin 2048) :
    (iblk m c 1 t : Vec Ideal S1024x2048 .bf16) (ix2 l q)
      = Ideal.sign (wAt (m ((c : Thread nD τ).loc main_arg1)) (2048 * (t.val / 4 % 8) + q.val) (1024 * (t.val % 4) + l.val)) := by
  have hi := index_right t
  have hq := q.isLt
  have hl := l.isLt
  have ht : t.val < 128 := lt_of_lt_of_eq t.isLt N_0
  have ho : 2048 * (t.val / 4 % 8) + q.val < 16384 := by omega
  have hk : 1024 * (t.val % 4) + l.val < 4096 := by omega
  refine Eq.trans ?_ (right_apply m c ⟨_, hk⟩ ⟨_, ho⟩)
  unfold iblk
  rw [View.read_apply]
  show (V m c main_v4 : S4096x16384.Idx → EReal) _ = (V m c main_v4 : S4096x16384.Idx → EReal) _
  congr 1
  funext a
  apply Fin.ext
  match a with
  | ⟨0, _⟩ => show win0_1.index t 0 * 1024 + 1 * l.val = 1024 * (t.val % 4) + l.val; rw [hi.1]; omega
  | ⟨1, _⟩ => show win0_1.index t 1 * 2048 + 1 * q.val = 2048 * (t.val / 4 % 8) + q.val; rw [hi.2]; omega

end Cert.KernelIdeal.Accum

end
-- ==== Proof.Fold.lean ====
/-
  What the output block's staging buffer holds when it is written back: the whole inner product.

  The grid walks, for each output tile, the four contraction blocks `k = 0, 1, 2, 3` at four CONSECUTIVE points
  `4q, 4q + 1, 4q + 2, 4q + 3`; the block is zeroed at the first, each point adds its block product, and the block is
  written back after the fourth. At entry `(p, q)` of the block, point `n` adds

      addend n (p, q) = ∑ l < 1024, x[row(n, p), 1024 · (n % 4) + l] · sign (w[col(n, q), 1024 · (n % 4) + l])

  (`step_apply`: the body's arithmetic at an entry, with the two operand blocks read from the argument arrays),
  where the row and column depend on `n` only through the tile, which the four points of a run share. So after the
  fourth point the entry holds `0 +` the four addends (`run_of_four`: the staging contents, defined by recursion on
  the point, are a fold that resets at the multiples of four), and the four addends together are the sum over all
  4096 contracted features (`whole_sum`: four blocks of 1024 make 4096, `sum_four_blocks`).
-/
import proofs.«178053_j31825707663462_2_alg».proof.Proof.Pieces
import proofs.«178053_j31825707663462_2_alg».proof.Proof.Payload
import proofs.«178053_j31825707663462_2_alg».proof.Proof.Operands

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.SignLinear

variable (m : (ℓ : Loc nD τ sig) → Buf (Elt Ideal) ℓ)

/-- What point `n` adds at entry `y` of the output block: the inner product, over its 1024-wide contraction block
    `n % 4`, of the activations' row `2048 · (n / 32) + y₀` (as batch and position) with the signs of the weights'
    row `2048 · ((n / 4) % 8) + y₁`. A function of every natural `n`; only points of the grid are ever used. -/
def addend (c : Dev nD) (n : ℕ) (y : S2048x2048.Idx) : EReal :=
  ∑ l : Fin 1024, term (m ((c : Thread nD τ).loc main_arg0)) (m ((c : Thread nD τ).loc main_arg1))
    ((2048 * (n / 32) + (y 0).val) / 4096) ((2048 * (n / 32) + (y 0).val) % 4096) (2048 * (n / 4 % 8) + (y 1).val)
    (1024 * (n % 4) + l.val)

/-- ONE STEP at an entry: the body at point `t`, started on a block holding `acc`, leaves `acc + addend t`. -/
theorem step_apply (c : Dev nD) (t : Fin cfg0.N) (acc : Vec Ideal S2048x2048 .f32) (y : S2048x2048.Idx) :
    k0_pay2 (F := Ideal) (iblk m c 0 t) (iblk m c 1 t) acc y = acc y + addend m c t.val y := by
  obtain ⟨p, q, rfl⟩ : ∃ (p q : Fin 2048), y = ix2 p q := ⟨y 0, y 1, eq_ix2 y⟩
  refine (accumulate_apply (iblk m c 0 t) (iblk m c 1 t) acc p q).trans ?_
  refine congrArg (acc (ix2 p q) + ·) (Finset.sum_congr rfl fun l _ => ?_)
  exact congrArg₂ (fun u v : EReal => u * v) (left_block_apply m c t p l) (right_block_apply m c t l q)

/-- The block a run's first point leaves: the body started on the zero splat. -/
def first (c : Dev nD) (n : ℕ) (h : n < cfg0.N) : Vec Ideal S2048x2048 .f32 :=
  k0_pay2 (F := Ideal) (iblk m c 0 ⟨n, h⟩) (iblk m c 1 ⟨n, h⟩) (k0_pay1 (F := Ideal))

/-- The block a later point leaves, from what the point before left. -/
def next (c : Dev nD) (n : ℕ) (h : n < cfg0.N) (acc : Vec Ideal S2048x2048 .f32) : Vec Ideal S2048x2048 .f32 :=
  k0_pay2 (F := Ideal) (iblk m c 0 ⟨n, h⟩) (iblk m c 1 ⟨n, h⟩) acc

/-- The staging contents reset at the multiples of four … -/
theorem resets (c : Dev nD) (n : ℕ) (h : n < cfg0.N) (h0 : n % 4 = 0) : outsAt0 m c n h = first m c n h :=
  (outsAt0_A m c ⟨n, h⟩ h0).trans
    (left_at_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (iblk m c 0 ⟨n, h⟩) (iblk m c 1 ⟨n, h⟩))

/-- … and step from the point before everywhere else. -/
theorem steps (c : Dev nD) (n : ℕ) (h : n + 1 < cfg0.N) (hne : ¬(n + 1) % 4 = 0) :
    outsAt0 m c (n + 1) h = next m c (n + 1) h (outsAt0 m c n (Nat.lt_of_succ_lt h)) :=
  (outsAt0_B m c ⟨n + 1, h⟩ hne).trans
    (left_at_later c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hne ((hcond0_0 ⟨n + 1, h⟩).mp hh)) (iblk m c 0 ⟨n + 1, h⟩) (iblk m c 1 ⟨n + 1, h⟩)
      (outsAt0 m c n (Nat.lt_of_succ_lt h)))

/-- AFTER THE FOURTH POINT of a run (`t % 4 = 3`: the point that writes the block back) an entry holds the four addends
    of the run's points `4 · (t / 4) + s`, `s < 4`. -/
theorem run_of_four (c : Dev nD) (t : Fin cfg0.N) (h3 : t.val % 4 = 3) (y : S2048x2048.Idx) :
    outsAt0 m c t.val t.isLt y = ∑ s ∈ Finset.range 4, addend m c (4 * (t.val / 4) + s) y := by
  have hN : cfg0.N = 128 := N_0
  have ht : t.val < 128 := lt_of_lt_of_eq t.isLt hN
  have h' : 4 * (t.val / 4) + t.val % 4 < cfg0.N := lt_of_lt_of_eq (by omega) hN.symm
  have hfold : outsAt0 m c t.val t.isLt = Pipeline.accAt (first m c) (next m c) (4 * (t.val / 4)) (t.val % 4) h' :=
    Pipeline.eq_accAt_of_mod (fun n h => outsAt0 m c n h) 4 (first m c) (next m c) (resets m c) (steps m c) (by decide)
      t.val t.isLt h'
  have hadd := Pipeline.accAt_add_apply (first m c) (next m c) (fun _ => (0 : EReal)) (addend m c) (4 * (t.val / 4)) 3
    (fun h i => by
      unfold first
      rw [step_apply m c ⟨4 * (t.val / 4), h⟩ _ i, zero_apply])
    (fun n h acc i _ _ => step_apply m c ⟨n, h⟩ acc i)
    (t.val % 4) (by omega) h' y
  rw [hfold, hadd, h3]
  exact zero_add _

/-- THE WHOLE INNER PRODUCT: what is written back at entry `(p, q)` of the tile of point `t` is the sum over all 4096
    input features — the four addends are its four consecutive blocks of 1024, and the row, the column and the tile
    do not change along the run. -/
theorem whole_sum (c : Dev nD) (t : Fin cfg0.N) (h3 : t.val % 4 = 3) (p q : Fin 2048) :
    outsAt0 m c t.val t.isLt (ix2 p q)
      = ∑ k : Fin 4096, term (m ((c : Thread nD τ).loc main_arg0)) (m ((c : Thread nD τ).loc main_arg1))
          ((2048 * (t.val / 32) + p.val) / 4096) ((2048 * (t.val / 32) + p.val) % 4096) (2048 * (t.val / 4 % 8) + q.val) k.val := by
  have ht : t.val < 128 := lt_of_lt_of_eq t.isLt N_0
  refine (run_of_four m c t h3 (ix2 p q)).trans ?_
  refine Eq.trans ?_ (sum_four_blocks fun k => term (m ((c : Thread nD τ).loc main_arg0)) (m ((c : Thread nD τ).loc main_arg1))
    ((2048 * (t.val / 32) + p.val) / 4096) ((2048 * (t.val / 32) + p.val) % 4096) (2048 * (t.val / 4 % 8) + q.val) k)
  refine Finset.sum_congr rfl fun s hs => ?_
  have hs4 : s < 4 := Finset.mem_range.mp hs
  have e1 : (4 * (t.val / 4) + s) / 32 = t.val / 32 := by omega
  have e2 : (4 * (t.val / 4) + s) / 4 % 8 = t.val / 4 % 8 := by omega
  have e3 : (4 * (t.val / 4) + s) % 4 = s := by omega
  unfold addend
  rw [e1, e2, e3]

end Cert.KernelIdeal.Accum

end
-- ==== Proof.Product.lean ====
/-
  The kernel's result: the region's output array is the whole product, and the reshape after the region makes it
  `result`.

  The region's output is the [8192, 16384] array whose entry `(r, o)` — row `r` the merged batch and position,
  `r = 4096 · b + s` — is the inner product over all 4096 features of the activations' row with the signs of weight
  row `o` (`product`). Each [2048, 2048] tile is written back once, after the fourth point of its run, holding exactly
  its part of `product` (`written_back`, from the fold), and the 4 × 8 tiles cover the array — entry `(r, o)` lies in
  the tile written at point `((r / 2048) · 8 + o / 2048) · 4 + 3` (`final_array`). After the region the program
  splits the row axis back into batch and position: a reshape keeps the row-major position, so entry `(b, s, o)` of
  the program's result is entry `(4096 · b + s, o)` of the array, which is `result x w (b, s, o)` (`tail_eq`). The run
  itself — termination, no fault, the arguments unchanged — is the generated frame run, re-posted (`run`).
-/
import proofs.«178053_j31825707663462_2_alg».proof.Proof.Fold

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Idealize.ShloMosaic.StableHlo Cert.SignLinear

variable (m : (ℓ : Loc nD τ sig) → Buf (Elt Ideal) ℓ) (ρ : Dev nD → PrngReg)

/-- The region's output array: entry `(r, o)` is the inner product of the activations at batch `r / 4096`, position
    `r % 4096` with the signs of weight row `o`. -/
def product (c : Dev nD) : S8192x16384.Idx → EReal := fun j =>
  ∑ k : Fin 4096, term (m ((c : Thread nD τ).loc main_arg0)) (m ((c : Thread nD τ).loc main_arg1))
    ((j 0).val / 4096) ((j 0).val % 4096) (j 1).val k.val

/-- `product` at an entry whose coordinates are known. -/
theorem product_of_coords (c : Dev nD) (j : S8192x16384.Idx) (r o : ℕ) (h0 : (j 0).val = r) (h1 : (j 1).val = o) :
    product m c j = ∑ k : Fin 4096, term (m ((c : Thread nD τ).loc main_arg0)) (m ((c : Thread nD τ).loc main_arg1))
      (r / 4096) (r % 4096) o k.val := by
  unfold product
  rw [h0, h1]

/-- Where the output window's tile sits at point `t`: (row tile, column tile). -/
theorem index_out : ∀ t : Fin cfg0.N, win0_2.index t 0 = t.val / 32 ∧ win0_2.index t 1 = t.val / 4 % 8 :=
  (by decide +kernel : ∀ t : Fin grid0.N, win0_2.index t 0 = t.val / 32 ∧ win0_2.index t 1 = t.val / 4 % 8)

/-- WHAT A WRITE-BACK WRITES: the tile of `product` at the point's (row tile, column tile). -/
theorem written_back (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hi := index_out t
  show (cfg0.win 2).cut (grid0.coords t) ((dats m 0 c).after 2 t) = _
  rw [after0_2]
  funext y
  obtain ⟨p, q, rfl⟩ : ∃ (p q : Fin 2048), y = ix2 p q := ⟨y 0, y 1, eq_ix2 y⟩
  show outsAt0 m c t.val t.isLt (ix2 p q) = product m c (((cfg0.win 2).blk t).view.emb (ix2 p q))
  refine (whole_sum m c t h3 p q).trans (product_of_coords m c _ _ _ ?_ ?_).symm
  · show win0_2.index t 0 * 2048 + 1 * p.val = 2048 * (t.val / 32) + p.val
    rw [hi.1]; omega
  · show win0_2.index t 1 * 2048 + 1 * q.val = 2048 * (t.val / 4 % 8) + q.val
    rw [hi.2]; omega

/-- An entry of the array is in point `t`'s tile iff each coordinate is in the tile's range on its axis. -/
theorem mem_tile (t : Fin cfg0.N) (i : S8192x16384.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v5).slice (win0_2.rect t)).set ↔ _
  rw [View.set_slice_whole, Rect.mem_set_unit]
  exact Iff.rfl

/-- THE ARRAY AFTER THE REGION is `product`: every write-back writes its tile of it, and the tiles cover the array. -/
theorem final_array (c : Dev nD) : (dats m 0 c).arrAt 2 cfg0.N = product m c :=
  (dats m 0 c).arrAt_eq_of_cover 2 (product m c) (written_back m c) fun i => by
    have h0 : ((i : S8192x16384.Idx) 0).val < 8192 := ((i : S8192x16384.Idx) 0).isLt
    have h1 : ((i : S8192x16384.Idx) 1).val < 16384 := ((i : S8192x16384.Idx) 1).isLt
    have hN : cfg0.N = 128 := N_0
    obtain ⟨n, hn⟩ : ∃ n : ℕ, n = (((i : S8192x16384.Idx) 0).val / 2048 * 8 + ((i : S8192x16384.Idx) 1).val / 2048) * 4 + 3 := ⟨_, rfl⟩
    have hlt : n < cfg0.N := lt_of_lt_of_eq (by omega) hN.symm
    have hi := index_out ⟨n, hlt⟩
    refine ⟨⟨n, hlt⟩, (flush0_2 ⟨n, hlt⟩).mpr (by show n % 4 = 3; omega), ?_⟩
    rw [mem_tile]
    intro a
    match a with
    | ⟨0, _⟩ =>
      show win0_2.index ⟨n, hlt⟩ 0 * 2048 ≤ ((i : S8192x16384.Idx) 0).val
        ∧ ((i : S8192x16384.Idx) 0).val < win0_2.index ⟨n, hlt⟩ 0 * 2048 + 2048
      rw [hi.1]; show n / 32 * 2048 ≤ _ ∧ _ < n / 32 * 2048 + 2048; omega
    | ⟨1, _⟩ =>
      show win0_2.index ⟨n, hlt⟩ 1 * 2048 ≤ ((i : S8192x16384.Idx) 1).val
        ∧ ((i : S8192x16384.Idx) 1).val < win0_2.index ⟨n, hlt⟩ 1 * 2048 + 2048
      rw [hi.2]; show n / 4 % 8 * 2048 ≤ _ ∧ _ < n / 4 % 8 * 2048 + 2048; omega

/-- THE PROGRAM'S RESULT: the reshape after the region reads the array at the same row-major position, so entry
    `(b, s, o)` is the array's entry `(4096 · b + s, o)`, the inner product at batch `b`, position `s`. -/
theorem tail_eq (c : Dev nD) :
    Pipeline.afterTail₀ cfgs (dats m) 0 (V0 m) [hostOps1] c main_v6
      = result (m ((c : Thread nD τ).loc main_arg0)) (m ((c : Thread nD τ).loc main_arg1)) := by
  have harr : Pipeline.withArrays (cfgs 0).spec c (V0 m c) (fun w => (dats m 0 c).arrAt w (cfgs 0).N) (Proc.devRef .tc main_v5) = product m c :=
    (Pipeline.withArrays_arr spec0 launch0.win.arr_inj c _ _ 2).trans (final_array m c)
  unfold Pipeline.afterTail₀
  show StableHlo.after hostOps1 _ (Proc.devRef .tc main_v6) = _
  after_results
  refine funext fun (j : S2x4096x16384.Idx) => ?_
  have hb : (j 0).val < 2 := (j 0).isLt
  have hs : (j 1).val < 4096 := (j 1).isLt
  have hr : 4096 * (j 0).val + (j 1).val < 8192 := by omega
  show shapeCast S2x4096x16384 (Pipeline.withArrays (cfgs 0).spec c (V0 m c) (fun w => (dats m 0 c).arrAt w (cfgs 0).N) (Proc.devRef .tc main_v5)) shapeCasts_S8192x16384_S2x4096x16384 j = _
  refine (shapeCast_apply _ _ j (ix2 ⟨4096 * (j 0).val + (j 1).val, hr⟩ (j 2 : Fin 16384) : S8192x16384.Idx) ?_).trans ?_
  · show ((⟨2, ![8192, 16384]⟩ : Shape).rowMajor (ix2 ⟨4096 * (j 0).val + (j 1).val, hr⟩ (j 2 : Fin 16384))).val
      = ((⟨3, ![2, 4096, 16384]⟩ : Shape).rowMajor j).val
    rw [Shape.rowMajor_val_two, Shape.rowMajor_val_three]
    show (4096 * (j 0).val + (j 1).val) * 16384 + (j 2).val = ((j 0).val * 4096 + (j 1).val) * 16384 + (j 2).val
    omega
  · have ea : (4096 * (j 0).val + (j 1).val) / 4096 = (j 0).val := by omega
    have eb : (4096 * (j 0).val + (j 1).val) % 4096 = (j 1).val := by omega
    refine (congrFun harr _).trans ?_
    refine (product_of_coords m c _ (4096 * (j 0).val + (j 1).val) (j 2).val rfl rfl).trans ?_
    rw [ea, eb, result_eq_sum_term]

/-- THE KERNEL'S RUN: every weakly fair execution terminates without a fault, with the program's result at `result` of
    the arguments and the arguments unchanged — the generated frame run, its post read at the result (a buffer no
    window stages: what the lines after the region leave) and at the two arguments (which no line writes). -/
theorem run : θ_run defs (onTc (τ := τ) (main (F := Ideal))) ⟨m, fun _ => 0, ρ⟩ fun r => ∀ c : Dev nD,
      r.2.mem ((c.tc : Thread nD τ).loc main_v6)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Accum

end
-- ==== Proof.Reference.lean ====
/-
  The reference computes `result`.

  The reference takes the sign of the weights and contracts the activations' feature axis with the weights' feature
  axis in ONE contraction: at entry `(b, s, o)` it is `∑ i, x[b, s, i] · sign (w[o, i])` over all 4096 features — the
  contraction read at an index (the generated reading of the program, one operation at a time) with its two operand
  indices written by coordinates. That is `result` as stated, term by term.
-/
import proofs.«178053_j31825707663462_2_alg».proof.Proof.Gen.ReferenceIdeal.Read
import proofs.«178053_j31825707663462_2_alg».proof.Proof.Spec

noncomputable section

open scoped BigOperators

namespace Cert.ReferenceIdeal.RefValue

open Cert.ReferenceIdeal Cert.ReferenceIdeal.Read Idealize.ShloMosaic Idealize.ShloMosaic.ValueIdx Cert.SignLinear

/-- The activations are read at (the entry's batch, the entry's position, the contracted feature) … -/
theorem left_index (j : S2x4096x16384.Idx) (i : Fin 4096) : lidx_main_v1 j i = ix3 (j 0) (j 1) i :=
  funext fun a => Fin.ext (by
    match a with
    | ⟨0, _⟩ => rfl
    | ⟨1, _⟩ => rfl
    | ⟨2, _⟩ => rfl)

/-- … and the weights at (the entry's output feature, the contracted feature). -/
theorem right_index (j : S2x4096x16384.Idx) (i : Fin 4096) : ridx_main_v1 j i = ix2 (j 2) i :=
  funext fun a => Fin.ext (by
    match a with
    | ⟨0, _⟩ => rfl
    | ⟨1, _⟩ => rfl)

/-- THE REFERENCE IS `result`: entry by entry the same sum of the same products. -/
theorem reference_eq (x : (⟨S2x4096x4096, .f32⟩ : BufTy).Contents (Elt Ideal)) (w : (⟨S16384x4096, .f32⟩ : BufTy).Contents (Elt Ideal)) :
    val_main_v1 (F := Ideal) x w = result x w := by
  funext j
  rw [val_main_v1_apply]
  unfold result
  refine Finset.sum_congr rfl fun i _ => ?_
  rw [val_main_v0_apply, left_index, right_index]
  rfl

end Cert.ReferenceIdeal.RefValue

end
-- ==== Proof.lean ====
/-
  A sign-quantized linear layer: `out[b, s, o] = ∑ i, x[b, s, i] · sign (w[o, i])` for activations `x` [2, 4096, 4096]
  and weights `w` [16384, 4096].

  The reference takes the sign of `w` and contracts the feature axis in one contraction. The kernel merges batch and
  position into 8192 rows, transposes the signs to [4096, 16384], and computes the [8192, 16384] product tile by tile
  on a grid (4, 8, 4) of (row tile, column tile, contraction block): each [2048, 2048] output tile is zeroed at
  contraction block 0, receives the product of a [2048, 1024] block of rows with a [1024, 2048] block of signs at each
  of the four contraction blocks, and is written back after the fourth; the rows are then split back into batch and
  position. Its changes of float format are the identity on the extended reals.

  Both are the same function of the arguments over the extended reals: the kernel's entry is `0 +` four block sums over
  consecutive 1024-wide blocks of the 4096 features, the reference's the one sum over all of them, and a finite sum in
  a commutative monoid may be taken block by block (Proof/Spec.lean `sum_four_blocks`). No product is distributed and
  nothing is cancelled, so the inputs' finiteness is not used.

  The parts: Proof/Spec.lean (the function `result` and the law), Proof/Reference.lean (the reference is `result`),
  Proof/Pieces.lean and Proof/Payload.lean (what one grid point leaves in the output tile, and its arithmetic at an
  entry), Proof/Operands.lean (the operand blocks read from the arguments), Proof/Fold.lean (the tile after a run of
  four points), Proof/Product.lean (the output array, the reshape after it, the kernel's run). Here: the five claims.
  Each program terminates without a fault and leaves its arguments unchanged (the kernels by their frame runs, the
  reference by its run); the idealization rewrote nothing; and the two idealized programs end at `result` of arguments
  that agree.
-/
import proofs.«178053_j31825707663462_2_alg».proof.Defs
import proofs.«178053_j31825707663462_2_alg».proof.Proof.Gen.Kernel
import proofs.«178053_j31825707663462_2_alg».proof.Proof.Gen.Kernel.Frame
import proofs.«178053_j31825707663462_2_alg».proof.Proof.Gen.KernelIdeal
import proofs.«178053_j31825707663462_2_alg».proof.Proof.Gen.KernelIdeal.Frame
import proofs.«178053_j31825707663462_2_alg».proof.Proof.Gen.ReferenceIdeal
import proofs.«178053_j31825707663462_2_alg».proof.Proof.Gen.ReferenceIdeal.Run
import proofs.«178053_j31825707663462_2_alg».proof.Proof.Gen.ReferenceIdeal.Read
import proofs.«178053_j31825707663462_2_alg».proof.Proof.Gen.Pre_finite_inputs
import proofs.«178053_j31825707663462_2_alg».proof.Proof.Product
import proofs.«178053_j31825707663462_2_alg».proof.Proof.Reference
import Idealize.ShloMosaic.Adequacy
import Idealize.ShloMosaic.Init

noncomputable section

namespace Cert.Proof

open Idealize.ShloMosaic Idealize.SL.Sem Cert.SignLinear

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `w` both idealized programs end with their result at `result x w`: the kernel
    by its run (Proof/Product.lean), the reference because its one contraction is `result` (Proof/Reference.lean). -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
